-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x256, .f32⟩
  | .hbm, ⟨48, _⟩ => ⟨S_, .f32⟩
  | .hbm, ⟨49, _⟩ => ⟨S50000x256, .f32⟩
  | .hbm, ⟨50, _⟩ => ⟨S600000x1, .i32⟩
  | .hbm, ⟨51, _⟩ => ⟨S50000x256, .f32⟩
  | .hbm, ⟨52, _⟩ => ⟨S_, .f32⟩
  | .hbm, ⟨53, _⟩ => ⟨S600000, .f32⟩
  | .hbm, ⟨54, _⟩ => ⟨S_, .f32⟩
  | .hbm, ⟨55, _⟩ => ⟨S50000, .f32⟩
  | .hbm, ⟨56, _⟩ => ⟨S600000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x256, .f32⟩
  | .hbm, ⟨55, _⟩ => ⟨S_, .f32⟩
  | .hbm, ⟨56, _⟩ => ⟨S50000x256, .f32⟩
  | .hbm, ⟨57, _⟩ => ⟨S600000x1, .i32⟩
  | .hbm, ⟨58, _⟩ => ⟨S50000x256, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named. From any launch memory every weakly fair execution of the whole
  program (a stretch of host operations, the first tiled product, a second stretch, the second tiled product) ends with
  the result buffer holding what the second product's write-backs leave in its array, and the arguments as launched:
  the result buffer is the second product's output array, no later operation writes it, and no operation or product
  writes an argument.
-/
import proofs.«126338_j79096117723240_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the second product's output array after its
    write-backs, and every argument as launched. -/
theorem run_out : θ_run defs (onTc (τ := τ) (main (F := F))) ⟨m, fun _ => 0, ρ⟩ (fun r => ∀ c : Dev nD,
      r.2.mem ((c.tc : Thread nD τ).loc main_v45) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v45 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.Layer.lean ====
/-
  One layer of the graph convolution as a function of arrays, entry by entry.

  `linAt A X Wl Wr b p q` is entry (p, q) of `A · Wl + X · Wr + b`: the two matrix products as plain sums over the
  contracted axis and the bias of column q. The kernel adds the bias after both products and the reference between
  them; over the extended reals addition is commutative and associative, so both are `linAt`
  (`add_add_add_comm'` below is the one rearrangement used).
-/
import Idealize.ShloMosaic.PureOps.Ideal
import Idealize.ShloMosaic.Lib.ValueIdx

noncomputable section

open scoped BigOperators

namespace Cert.Sage

open Idealize.ShloMosaic Idealize.ShloMosaic.ValueIdx

/-- Entry (p, q) of `A · Wl + X · Wr + b`. -/
def linAt {N K M : Nat} (A X : (⟨2, ![N, K]⟩ : Shape).Idx → EReal) (Wl Wr : (⟨2, ![K, M]⟩ : Shape).Idx → EReal)
    (b : Fin M → EReal) (p : Fin N) (q : Fin M) : EReal :=
  ((∑ k : Fin K, A (ix2 p k) * Wl (ix2 k q)) + ∑ k : Fin K, X (ix2 p k) * Wr (ix2 k q)) + b q

/-- Two layers' entries agree when the rows and columns they read agree. -/
theorem linAt_congr {N N' K M M' : Nat}
    {A X : (⟨2, ![N, K]⟩ : Shape).Idx → EReal} {Wl Wr : (⟨2, ![K, M]⟩ : Shape).Idx → EReal} {b : Fin M → EReal}
    {A' X' : (⟨2, ![N', K]⟩ : Shape).Idx → EReal} {Wl' Wr' : (⟨2, ![K, M']⟩ : Shape).Idx → EReal} {b' : Fin M' → EReal}
    {p : Fin N} {q : Fin M} {p' : Fin N'} {q' : Fin M'}
    (hA : ∀ k, A (ix2 p k) = A' (ix2 p' k)) (hX : ∀ k, X (ix2 p k) = X' (ix2 p' k))
    (hWl : ∀ k, Wl (ix2 k q) = Wl' (ix2 k q')) (hWr : ∀ k, Wr (ix2 k q) = Wr' (ix2 k q')) (hb : b q = b' q') :
    linAt A X Wl Wr b p q = linAt A' X' Wl' Wr' b' p' q' := by
  unfold linAt
  rw [hb]
  refine congrArg (· + b' q') (congrArg₂ (· + ·) ?_ ?_)
  · exact Finset.sum_congr rfl fun k _ => by rw [hA k, hWl k]
  · exact Finset.sum_congr rfl fun k _ => by rw [hX k, hWr k]

/-- The first layer as an array: `A · Wl + X · Wr + b` clamped below at zero (the zero written as the f32 word the
    programs write). -/
def layerRelu {N K M : Nat} (A X : (⟨2, ![N, K]⟩ : Shape).Idx → EReal) (Wl Wr : (⟨2, ![K, M]⟩ : Shape).Idx → EReal)
    (b : Fin M → EReal) : (⟨2, ![N, M]⟩ : Shape).Idx → EReal :=
  fun i => max (linAt A X Wl Wr b (i 0) (i 1)) (Ideal.ofBits .f32 0x00000000#32)

/-- The second layer as an array: `A · Wl + X · Wr + b`. -/
def layerLin {N K M : Nat} (A X : (⟨2, ![N, K]⟩ : Shape).Idx → EReal) (Wl Wr : (⟨2, ![K, M]⟩ : Shape).Idx → EReal)
    (b : Fin M → EReal) : (⟨2, ![N, M]⟩ : Shape).Idx → EReal :=
  fun i => linAt A X Wl Wr b (i 0) (i 1)

/-- The bias added between the two products is the bias added after them. -/
theorem add_bias_mid (s₁ s₂ c : EReal) : (s₁ + c) + s₂ = (s₁ + s₂) + c := add_right_comm s₁ c s₂

end Cert.Sage

end
-- ==== Proof.KernelBody.lean ====
/-
  The two kernel bodies at an entry. Each body loads a block of aggregated rows, the same block of the layer's input
  rows, the two weight matrices and the bias row, and stores `agg · W_l + x · W_r + b` (the first body followed by
  `max(·, 0)`). At the extended reals the narrowing of the operands to bf16 is the identity and a matrix product into
  a zero accumulator is the plain sum over the contracted axis, so entry (p, q) of what is stored is `linAt` of the
  loaded blocks.
-/
import proofs.«126338_j79096117723240_1_alg».proof.Proof.Gen.KernelIdeal.Skeleton
import proofs.«126338_j79096117723240_1_alg».proof.Proof.LibDotPlain
import proofs.«126338_j79096117723240_1_alg».proof.Proof.Layer
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Sage Cert.LibDotPlain

/-- The first body's product: [2000, 128] × [128, 256]. -/
abbrev D0 : DotDims S2000x128 S128x256 S2000x256 := dot_S2000x128_S128x256_S2000x256_1_0_0_1_n_n
/-- The second body's product: [2000, 256] × [256, 128]. -/
abbrev D1 : DotDims S2000x256 S256x128 S2000x128 := dot_S2000x256_S256x128_S2000x128_1_0_0_1_n_n

theorem d0_l0 (i : S2000x256.Idx) (k : D0.contr.Idx) : (D0.lhsIdx i k 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem d0_l1 (i : S2000x256.Idx) (k : D0.contr.Idx) : (D0.lhsIdx i k 1).val = (k ⟨0, by decide⟩).val :=
  D0.lhsIdx_val_of_single rfl i k
theorem d0_r0 (i : S2000x256.Idx) (k : D0.contr.Idx) : (D0.rhsIdx i k 0).val = (k ⟨0, by decide⟩).val :=
  D0.rhsIdx_val_of_single rfl i k
theorem d0_r1 (i : S2000x256.Idx) (k : D0.contr.Idx) : (D0.rhsIdx i k 1).val = (i 1).val := by
  unfold DotDims.rhsIdx
  rw [dif_neg (show ¬(1 : Fin S128x256.rank) ∈ D0.rhsBatch by decide), dif_pos (show (1 : Fin S128x256.rank) ∈ D0.rhsNonContracting by decide)]
  rfl

theorem d1_l0 (i : S2000x128.Idx) (k : D1.contr.Idx) : (D1.lhsIdx i k 0).val = (i 0).val := by
  unfold DotDims.lhsIdx
  rw [dif_neg (show ¬(0 : Fin S2000x256.rank) ∈ D1.lhsBatch by decide), dif_pos (show (0 : Fin S2000x256.rank) ∈ D1.lhsNonContracting by decide)]
  rfl
theorem d1_l1 (i : S2000x128.Idx) (k : D1.contr.Idx) : (D1.lhsIdx i k 1).val = (k ⟨0, by decide⟩).val :=
  D1.lhsIdx_val_of_single rfl i k
theorem d1_r0 (i : S2000x128.Idx) (k : D1.contr.Idx) : (D1.rhsIdx i k 0).val = (k ⟨0, by decide⟩).val :=
  D1.rhsIdx_val_of_single rfl i k
theorem d1_r1 (i : S2000x128.Idx) (k : D1.contr.Idx) : (D1.rhsIdx i k 1).val = (i 1).val := by
  unfold DotDims.rhsIdx
  rw [dif_neg (show ¬(1 : Fin S256x128.rank) ∈ D1.rhsBatch by decide), dif_pos (show (1 : Fin S256x128.rank) ∈ D1.rhsNonContracting by decide)]
  rfl

/-- The bias row [1, 256] broadcast over 2000 rows reads its column. -/
theorem bias0_at (bb : FVec Ideal S1x256 .f32) (p : Fin 2000) (q : Fin 256) :
    broadcastTo S2000x256 bb broadcasts_S1x256_S2000x256 (ix2 p q) = bb (ix2 (0 : Fin 1) q) :=
  broadcastTo_apply bb broadcasts_S1x256_S2000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])

/-- The bias row [1, 128] broadcast over 2000 rows reads its column. -/
theorem bias1_at (bb : FVec Ideal S1x128 .f32) (p : Fin 2000) (q : Fin 128) :
    broadcastTo S2000x128 bb broadcasts_S1x128_S2000x128 (ix2 p q) = bb (ix2 (0 : Fin 1) q) :=
  broadcastTo_apply bb broadcasts_S1x128_S2000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- Entry (p, q) of what the first body stores: the layer's entry of the loaded blocks, clamped below at zero. -/
theorem pay0_at (a x : FVec Ideal S2000x128 .f32) (wl wr : FVec Ideal S128x256 .f32) (bb : FVec Ideal S1x256 .f32)
    (p : Fin 2000) (q : Fin 256) :
    k0_pay1 (F := Ideal) a x wl wr bb (ix2 p q)
      = max (linAt a x wl wr (fun q => bb (ix2 (0 : Fin 1) q)) p q) (Ideal.ofBits .f32 0x00000000#32) := by
  have h1 : FloatOps.matmul (φ₁ := .bf16) (φ₂ := .bf16) D0 none a wl (constant S2000x256 .f32 0x00000000#32) (ix2 p q)
      = ∑ k : Fin 128, a (ix2 p k) * wl (ix2 k q) :=
    matmul_zero_plain (φ₁ := .bf16) (φ₂ := .bf16) D0 rfl rfl d0_l0 d0_l1 d0_r0 d0_r1 none a wl p q
  have h2 : FloatOps.matmul (φ₁ := .bf16) (φ₂ := .bf16) D0 none x wr (constant S2000x256 .f32 0x00000000#32) (ix2 p q)
      = ∑ k : Fin 128, x (ix2 p k) * wr (ix2 k q) :=
    matmul_zero_plain (φ₁ := .bf16) (φ₂ := .bf16) D0 rfl rfl d0_l0 d0_l1 d0_r0 d0_r1 none x wr p q
  have hb := bias0_at bb p q
  unfold k0_pay1
  simp only [shapeCast_self]
  show max ((FloatOps.matmul (φ₁ := .bf16) (φ₂ := .bf16) D0 none a wl (constant S2000x256 .f32 0x00000000#32) (ix2 p q)
      + FloatOps.matmul (φ₁ := .bf16) (φ₂ := .bf16) D0 none x wr (constant S2000x256 .f32 0x00000000#32) (ix2 p q))
      + broadcastTo S2000x256 bb broadcasts_S1x256_S2000x256 (ix2 p q)) (Ideal.ofBits .f32 0x00000000#32) = _
  rw [h1, h2, hb]
  rfl

/-- Entry (p, q) of what the second body stores: the layer's entry of the loaded blocks. -/
theorem pay1_at (a x : FVec Ideal S2000x256 .f32) (wl wr : FVec Ideal S256x128 .f32) (bb : FVec Ideal S1x128 .f32)
    (p : Fin 2000) (q : Fin 128) :
    k1_pay1 (F := Ideal) a x wl wr bb (ix2 p q) = linAt a x wl wr (fun q => bb (ix2 (0 : Fin 1) q)) p q := by
  have h1 : FloatOps.matmul (φ₁ := .bf16) (φ₂ := .bf16) D1 none a wl (constant S2000x128 .f32 0x00000000#32) (ix2 p q)
      = ∑ k : Fin 256, a (ix2 p k) * wl (ix2 k q) :=
    matmul_zero_plain (φ₁ := .bf16) (φ₂ := .bf16) D1 rfl rfl d1_l0 d1_l1 d1_r0 d1_r1 none a wl p q
  have h2 : FloatOps.matmul (φ₁ := .bf16) (φ₂ := .bf16) D1 none x wr (constant S2000x128 .f32 0x00000000#32) (ix2 p q)
      = ∑ k : Fin 256, x (ix2 p k) * wr (ix2 k q) :=
    matmul_zero_plain (φ₁ := .bf16) (φ₂ := .bf16) D1 rfl rfl d1_l0 d1_l1 d1_r0 d1_r1 none x wr p q
  have hb := bias1_at bb p q
  unfold k1_pay1
  simp only [shapeCast_self]
  show (FloatOps.matmul (φ₁ := .bf16) (φ₂ := .bf16) D1 none a wl (constant S2000x128 .f32 0x00000000#32) (ix2 p q)
      + FloatOps.matmul (φ₁ := .bf16) (φ₂ := .bf16) D1 none x wr (constant S2000x128 .f32 0x00000000#32) (ix2 p q))
      + broadcastTo S2000x128 bb broadcasts_S1x128_S2000x128 (ix2 p q) = _
  rw [h1, h2, hb]
  rfl

end Cert.KernelIdeal.Body

end
-- ==== Proof.KernelRegions.lean ====
/-
  Each tiled product's output array after its write-backs is the layer function of the arrays the product reads.
  Point t of the 25-point grid reads rows 2000·t … 2000·t + 1999 of the aggregated array and of the layer's input,
  the two whole weight matrices and the bias row, and writes back rows 2000·t … 2000·t + 1999 of the output; what it
  writes is the layer's entries at those rows, and the 25 row blocks cover the array.
-/
import proofs.«126338_j79096117723240_1_alg».proof.Proof.Gen.KernelIdeal.Frame
import proofs.«126338_j79096117723240_1_alg».proof.Proof.KernelBody
import Idealize.ShloMosaic.Lib.Pipeline.Value

set_option maxRecDepth 16384

noncomputable section

open scoped BigOperators

namespace Cert.KernelIdeal.Regions

open Cert.KernelIdeal Cert.KernelIdeal.Gen Cert.KernelIdeal.Body
open Idealize.ShloMosaic Idealize.ShloMosaic.TcCoe Idealize.SL.Sem Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first product -/

/-- Where each window's block sits at point t: the row windows at block row t, the whole-array windows at 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output of the first product as one function of the arrays the region finds. -/
def G0 (c : Dev nD) : S50000x256.Idx → EReal :=
  layerRelu (V c main_v22 : S50000x128.Idx → EReal) (V c main_arg0 : S50000x128.Idx → EReal)
    (V c main_arg2 : S128x256.Idx → EReal) (V c main_arg4 : S128x256.Idx → EReal)
    (fun q => (V c main_v23 : S1x256.Idx → EReal) (ix2 (0 : Fin 1) q))

/-- Row p of point t's block of aggregated rows is row 2000·t + p of the array. -/
theorem blk0_0 (c : Dev nD) (t : Fin cfg0.N) (p : Fin 2000) (k : Fin 128) (r : Fin 50000) (hr : r.val = t.val * 2000 + p.val) :
    (iblk0 V c 0 t : S2000x128.Idx → EReal) (ix2 p k) = (V c main_v22 : S50000x128.Idx → EReal) (ix2 r k) := by
  obtain ⟨e0, e1, -⟩ := idx_facts0 t
  unfold iblk0
  rw [View.read_apply]
  show (V c main_v22 : S50000x128.Idx → EReal) _ = _
  refine congrArg (V c main_v22 : S50000x128.Idx → EReal) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of point t's block of input rows is row 2000·t + p of the array. -/
theorem blk0_1 (c : Dev nD) (t : Fin cfg0.N) (p : Fin 2000) (k : Fin 128) (r : Fin 50000) (hr : r.val = t.val * 2000 + p.val) :
    (iblk0 V c 1 t : S2000x128.Idx → EReal) (ix2 p k) = (V c main_arg0 : S50000x128.Idx → EReal) (ix2 r k) := by
  obtain ⟨-, -, e0, e1, -⟩ := idx_facts0 t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The left weight matrix's one block is the whole matrix. -/
theorem blk0_2 (c : Dev nD) (t : Fin cfg0.N) (k : Fin 128) (q : Fin 256) :
    (iblk0 V c 2 t : S128x256.Idx → EReal) (ix2 k q) = (V c main_arg2 : S128x256.Idx → EReal) (ix2 k q) := by
  obtain ⟨-, -, -, -, e0, e1, -⟩ := idx_facts0 t
  unfold iblk0
  rw [View.read_apply]
  show (V c main_arg2 : S128x256.Idx → EReal) _ = _
  refine congrArg (V c main_arg2 : S128x256.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The bias row's one block is the whole row. -/
theorem blk0_3 (c : Dev nD) (t : Fin cfg0.N) (q : Fin 256) :
    (iblk0 V c 3 t : S1x256.Idx → EReal) (ix2 (0 : Fin 1) q) = (V c main_v23 : S1x256.Idx → EReal) (ix2 (0 : Fin 1) q) := by
  obtain ⟨-, -, -, -, -, -, e0, e1, -⟩ := idx_facts0 t
  unfold iblk0
  rw [View.read_apply]
  show (V c main_v23 : S1x256.Idx → EReal) _ = _
  refine congrArg (V c main_v23 : S1x256.Idx → EReal) (funext fun a => Fin.ext ?_)
  match a with
  | ⟨0, _⟩ => show win0_3.index t (0 : Fin 2) * 1 + 1 * 0 = 0; rw [e0]
  | ⟨1, _⟩ => show win0_3.index t (1 : Fin 2) * 256 + 1 * q.val = q.val; rw [e1]; omega

/-- The right weight matrix's one block is the whole matrix. -/
theorem blk0_4 (c : Dev nD) (t : Fin cfg0.N) (k : Fin 128) (q : Fin 256) :
    (iblk0 V c 4 t : S128x256.Idx → EReal) (ix2 k q) = (V c main_arg4 : S128x256.Idx → EReal) (ix2 k q) := by
  obtain ⟨-, -, -, -, -, -, -, -, e0, e1, -⟩ := idx_facts0 t
  unfold iblk0
  rw [View.read_apply]
  show (V c main_arg4 : S128x256.Idx → EReal) _ = _
  refine congrArg (V c main_arg4 : S128x256.Idx → EReal) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- What point t writes back is block t of the layer function of the arrays. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨-, -, -, -, -, -, -, -, -, -, e0, e1⟩ := idx_facts0 t
  refine funext fun (j : S2000x256.Idx) => ?_
  obtain ⟨p, q, rfl⟩ : ∃ (p : Fin 2000) (q : Fin 256), j = ix2 p q := ⟨j 0, j 1, eq_ix2 j⟩
  rw [View.read_apply]
  have hr : ((((cfg0.win 5).blk t).view.emb (ix2 p q)) 0).val = t.val * 2000 + p.val := by
    show win0_5.index t (0 : Fin 2) * 2000 + 1 * p.val = _; rw [e0]; omega
  have hq : ((((cfg0.win 5).blk t).view.emb (ix2 p q)) 1).val = q.val := by
    show win0_5.index t (1 : Fin 2) * 256 + 1 * q.val = _; rw [e1]; omega
  show k0_pay1 (F := Ideal) (iblk0 V c 0 t) (iblk0 V c 1 t) (iblk0 V c 2 t) (iblk0 V c 4 t) (iblk0 V c 3 t) (ix2 p q)
    = max (linAt (V c main_v22 : S50000x128.Idx → EReal) (V c main_arg0 : S50000x128.Idx → EReal)
        (V c main_arg2 : S128x256.Idx → EReal) (V c main_arg4 : S128x256.Idx → EReal)
        (fun q => (V c main_v23 : S1x256.Idx → EReal) (ix2 (0 : Fin 1) q))
        ((((cfg0.win 5).blk t).view.emb (ix2 p q)) 0) ((((cfg0.win 5).blk t).view.emb (ix2 p q)) 1)) (Ideal.ofBits .f32 0x00000000#32)
  refine (pay0_at (iblk0 V c 0 t) (iblk0 V c 1 t) (iblk0 V c 2 t) (iblk0 V c 4 t) (iblk0 V c 3 t) p q).trans ?_
  have hq' : ((((cfg0.win 5).blk t).view.emb (ix2 p q)) 1 : Fin 256) = q := Fin.ext hq
  rw [hq']
  refine congrArg (fun z => max z (Ideal.ofBits .f32 0x00000000#32)) (linAt_congr ?_ ?_ ?_ ?_ ?_)
  · exact fun k => blk0_0 V c t p k _ hr
  · exact fun k => blk0_1 V c t p k _ hr
  · exact fun k => blk0_2 V c t k q
  · exact fun k => blk0_4 V c t k q
  · exact blk0_3 V c t q

/-- An index of the output array is in point t's block iff its row is among rows 2000·t … 2000·t + 1999. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- The 25 row blocks cover the output array. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_5 _, ?_⟩
  obtain ⟨-, -, -, -, -, -, -, -, -, -, e0, e1⟩ := idx_facts0 ⟨(i 0).val / 2000, by rw [hN]; omega⟩
  rw [mem_blk0]
  intro a
  match a with
  | ⟨0, _⟩ => show win0_5.index _ (0 : Fin 2) * 2000 ≤ (i 0).val ∧ (i 0).val < win0_5.index _ (0 : Fin 2) * 2000 + 2000; rw [e0]; show (i 0).val / 2000 * 2000 ≤ (i 0).val ∧ (i 0).val < (i 0).val / 2000 * 2000 + 2000; omega
  | ⟨1, _⟩ => show win0_5.index _ (1 : Fin 2) * 256 ≤ (i 1).val ∧ (i 1).val < win0_5.index _ (1 : Fin 2) * 256 + 256; rw [e1]; omega

/-- The first product's output array after its write-backs is the layer function of the arrays it reads. -/
theorem final0 (c : Dev nD) : (dat0 V c).arrAt 5 cfg0.N = G0 V c :=
  (dat0 V c).arrAt_eq_of_cover 5 (G0 V c) (fun t _ => flushed0_eq V c t) (cover0)

/-! ## The second product -/

/-- Where each window's block sits at point t: the row windows at block row t, the whole-array windows at 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output of the second product as one function of the arrays the region finds. -/
def G1 (c : Dev nD) : S50000x128.Idx → EReal :=
  layerLin (V c main_v43 : S50000x256.Idx → EReal) (V c main_v24 : S50000x256.Idx → EReal)
    (V c main_arg5 : S256x128.Idx → EReal) (V c main_arg7 : S256x128.Idx → EReal)
    (fun q => (V c main_v44 : S1x128.Idx → EReal) (ix2 (0 : Fin 1) q))

/-- Row p of point t's block of aggregated rows is row 2000·t + p of the array. -/
theorem blk1_0 (c : Dev nD) (t : Fin cfg1.N) (p : Fin 2000) (k : Fin 256) (r : Fin 50000) (hr : r.val = t.val * 2000 + p.val) :
    (iblk1 V c 0 t : S2000x256.Idx → EReal) (ix2 p k) = (V c main_v43 : S50000x256.Idx → EReal) (ix2 r k) := by
  obtain ⟨e0, e1, -⟩ := idx_facts1 t
  unfold iblk1
  rw [View.read_apply]
  show (V c main_v43 : S50000x256.Idx → EReal) _ = _
  refine congrArg (V c main_v43 : S50000x256.Idx → EReal) (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of point t's block of input rows is row 2000·t + p of the array. -/
theorem blk1_1 (c : Dev nD) (t : Fin cfg1.N) (p : Fin 2000) (k : Fin 256) (r : Fin 50000) (hr : r.val = t.val * 2000 + p.val) :
    (iblk1 V c 1 t : S2000x256.Idx → EReal) (ix2 p k) = (V c main_v24 : S50000x256.Idx → EReal) (ix2 r k) := by
  obtain ⟨-, -, e0, e1, -⟩ := idx_facts1 t
  unfold iblk1
  rw [View.read_apply]
  show (V c main_v24 : S50000x256.Idx → EReal) _ = _
  refine congrArg (V c main_v24 : S50000x256.Idx → EReal) (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The left weight matrix's one block is the whole matrix. -/
theorem blk1_2 (c : Dev nD) (t : Fin cfg1.N) (k : Fin 256) (q : Fin 128) :
    (iblk1 V c 2 t : S256x128.Idx → EReal) (ix2 k q) = (V c main_arg5 : S256x128.Idx → EReal) (ix2 k q) := by
  obtain ⟨-, -, -, -, e0, e1, -⟩ := idx_facts1 t
  unfold iblk1
  rw [View.read_apply]
  show (V c main_arg5 : S256x128.Idx → EReal) _ = _
  refine congrArg (V c main_arg5 : S256x128.Idx → EReal) (funext fun a => Fin.ext ?_)
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- The bias row's one block is the whole row. -/
theorem blk1_3 (c : Dev nD) (t : Fin cfg1.N) (q : Fin 128) :
    (iblk1 V c 3 t : S1x128.Idx → EReal) (ix2 (0 : Fin 1) q) = (V c main_v44 : S1x128.Idx → EReal) (ix2 (0 : Fin 1) q) := by
  obtain ⟨-, -, -, -, -, -, e0, e1, -⟩ := idx_facts1 t
  unfold iblk1
  rw [View.read_apply]
  show (V c main_v44 : S1x128.Idx → EReal) _ = _
  refine congrArg (V c main_v44 : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The right weight matrix's one block is the whole matrix. -/
theorem blk1_4 (c : Dev nD) (t : Fin cfg1.N) (k : Fin 256) (q : Fin 128) :
    (iblk1 V c 4 t : S256x128.Idx → EReal) (ix2 k q) = (V c main_arg7 : S256x128.Idx → EReal) (ix2 k q) := by
  obtain ⟨-, -, -, -, -, -, -, -, e0, e1, -⟩ := idx_facts1 t
  unfold iblk1
  rw [View.read_apply]
  show (V c main_arg7 : S256x128.Idx → EReal) _ = _
  refine congrArg (V c main_arg7 : S256x128.Idx → EReal) (funext fun a => Fin.ext ?_)
  match a with
  | ⟨0, _⟩ => show win1_4.index t (0 : Fin 2) * 256 + 1 * k.val = k.val; rw [e0]; omega
  | ⟨1, _⟩ => show win1_4.index t (1 : Fin 2) * 128 + 1 * q.val = q.val; rw [e1]; omega

/-- What point t writes back is block t of the layer function of the arrays. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨-, -, -, -, -, -, -, -, -, -, e0, e1⟩ := idx_facts1 t
  refine funext fun (j : S2000x128.Idx) => ?_
  obtain ⟨p, q, rfl⟩ : ∃ (p : Fin 2000) (q : Fin 128), j = ix2 p q := ⟨j 0, j 1, eq_ix2 j⟩
  rw [View.read_apply]
  have hr : ((((cfg1.win 5).blk t).view.emb (ix2 p q)) 0).val = t.val * 2000 + p.val := by
    show win1_5.index t (0 : Fin 2) * 2000 + 1 * p.val = _; rw [e0]; omega
  have hq : ((((cfg1.win 5).blk t).view.emb (ix2 p q)) 1).val = q.val := by
    show win1_5.index t (1 : Fin 2) * 128 + 1 * q.val = _; rw [e1]; omega
  show k1_pay1 (F := Ideal) (iblk1 V c 0 t) (iblk1 V c 1 t) (iblk1 V c 2 t) (iblk1 V c 4 t) (iblk1 V c 3 t) (ix2 p q)
    = linAt (V c main_v43 : S50000x256.Idx → EReal) (V c main_v24 : S50000x256.Idx → EReal)
        (V c main_arg5 : S256x128.Idx → EReal) (V c main_arg7 : S256x128.Idx → EReal)
        (fun q => (V c main_v44 : S1x128.Idx → EReal) (ix2 (0 : Fin 1) q))
        ((((cfg1.win 5).blk t).view.emb (ix2 p q)) 0) ((((cfg1.win 5).blk t).view.emb (ix2 p q)) 1)
  refine (pay1_at (iblk1 V c 0 t) (iblk1 V c 1 t) (iblk1 V c 2 t) (iblk1 V c 4 t) (iblk1 V c 3 t) p q).trans ?_
  have hq' : ((((cfg1.win 5).blk t).view.emb (ix2 p q)) 1 : Fin 128) = q := Fin.ext hq
  rw [hq']
  refine linAt_congr ?_ ?_ ?_ ?_ ?_
  · exact fun k => blk1_0 V c t p k _ hr
  · exact fun k => blk1_1 V c t p k _ hr
  · exact fun k => blk1_2 V c t k q
  · exact fun k => blk1_4 V c t k q
  · exact blk1_3 V c t q

/-- An index of the output array is in point t's block iff its row is among rows 2000·t … 2000·t + 1999. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- The 25 row blocks cover the output array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  obtain ⟨-, -, -, -, -, -, -, -, -, -, e0, e1⟩ := idx_facts1 ⟨(i 0).val / 2000, by rw [hN]; omega⟩
  rw [mem_blk1]
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ (i 0).val ∧ (i 0).val < (i 0).val / 2000 * 2000 + 2000; omega
  | ⟨1, _⟩ => show win1_5.index _ (1 : Fin 2) * 128 ≤ (i 1).val ∧ (i 1).val < win1_5.index _ (1 : Fin 2) * 128 + 128; rw [e1]; omega

/-- The second product's output array after its write-backs is the layer function of the arrays it reads. -/
theorem final1 (c : Dev nD) : (dat1 V c).arrAt 5 cfg1.N = G1 V c :=
  (dat1 V c).arrAt_eq_of_cover 5 (G1 V c) (fun t _ => flushed1_eq V c t) (cover1)

end Cert.KernelIdeal.Regions

end
-- ==== Proof.Aggregate.lean ====
/-
  The second layer's mean aggregation as one function of the array it aggregates. The reference gathers the source
  rows of every edge out of the first layer's result, sums them at the destination rows, and divides by the clamped
  edge count of each destination; the index arrays and the count depend on the edge list only.
-/
import proofs.«126338_j79096117723240_1_alg».proof.Proof.Gen.ReferenceIdeal.Read

noncomputable section

namespace Cert.ReferenceIdeal.Aggregate

open Cert.ReferenceIdeal Cert.ReferenceIdeal.Gen Cert.ReferenceIdeal.Read Idealize.ShloMosaic

/-- Mean aggregation of a [50000, 256] array along the edge list: gather the source rows, sum them at the destination
    rows, divide by the clamped edge count. -/
def agg2 (h : FVec Ideal S50000x256 .f32) (x1 : IVec S2x600000 32) : FVec Ideal S50000x256 .f32 :=
  Host.divf (F := Ideal)
    (Host.scatterAdd scatter_S50000x256_S600000x1_S600000x256_1_0_0_1
      (val_main_v37 (F := Ideal)) (val_main_v38 (F := Ideal) x1)
      (Host.gather gather_S50000x256_S600000x1_S600000x256_1_0_n_n_0_1_1256 h (val_main_v35 (F := Ideal) x1)))
    (val_main_v47 (F := Ideal) x1)

/-- The reference's aggregated rows of the second layer are that function of the first layer's result. -/
theorem v48_eq (x0 : FVec Ideal S50000x128 .f32) (x1 : IVec S2x600000 32) (x2 : FVec Ideal S128x256 .f32)
    (x3 : FVec Ideal S256 .f32) (x4 : FVec Ideal S128x256 .f32) :
    val_main_v48 (F := Ideal) x0 x1 x2 x3 x4 = agg2 (val_main_v29 (F := Ideal) x0 x1 x2 x3 x4) x1 := by
  unfold val_main_v48 val_main_v39 val_main_v36 agg2
  rfl

end Cert.ReferenceIdeal.Aggregate

end
-- ==== Proof.HostChain.lean ====
/-
  The host operations around the two tiled products, read as values. Before the first product the program slices the
  edge list into sources and destinations, gathers the source rows, sums them at the destination rows, counts each
  destination's edges and divides; between the products it does the same to the first product's output. Both
  stretches are the operations the reference applies, so what each product finds in its windows is the reference's
  own stage function of the arguments (for the second stretch, of the first product's output); a bias vector reaches
  its product as a one-row array, and no operation writes an argument.
-/
import proofs.«126338_j79096117723240_1_alg».proof.Proof.Gen.KernelIdeal.Frame
import proofs.«126338_j79096117723240_1_alg».proof.Proof.Gen.ReferenceIdeal.Read
import proofs.«126338_j79096117723240_1_alg».proof.Proof.Aggregate
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Idealize.ShloMosaic.ValueIdx Idealize.ShloMosaic.StableHlo
open Cert.ReferenceIdeal.Aggregate (agg2)

variable (m : (ℓ : Loc nD τ sig) → Buf (Elt Ideal) ℓ) (ρ : Dev nD → PrngReg)

/-! ## What the first product finds -/

/-- The first product's aggregated rows are the reference's. -/
theorem v22_eq (c : Dev nD) :
    (V1 m ρ c main_v22 : S50000x128.Idx → EReal)
      = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

theorem v1_arg0 (c : Dev nD) : (V1 m ρ c main_arg0 : S50000x128.Idx → EReal) = m ((c : Thread nD τ).loc main_arg0) := by
  show StableHlo.after hostOps0 (W0 m ρ c) (Proc.devRef .tc main_arg0) = _
  after_results_simp <;> rfl
theorem v1_arg2 (c : Dev nD) : (V1 m ρ c main_arg2 : S128x256.Idx → EReal) = m ((c : Thread nD τ).loc main_arg2) := by
  show StableHlo.after hostOps0 (W0 m ρ c) (Proc.devRef .tc main_arg2) = _
  after_results_simp <;> rfl
theorem v1_arg4 (c : Dev nD) : (V1 m ρ c main_arg4 : S128x256.Idx → EReal) = m ((c : Thread nD τ).loc main_arg4) := by
  show StableHlo.after hostOps0 (W0 m ρ c) (Proc.devRef .tc main_arg4) = _
  after_results_simp <;> rfl

/-- The first bias reaches its product as a one-row array. -/
theorem v1_v23 (c : Dev nD) (q : Fin 256) :
    (V1 m ρ c main_v23 : S1x256.Idx → EReal) (ix2 (0 : Fin 1) q) = (m ((c : Thread nD τ).loc main_arg3) : S256.Idx → EReal) (ix1 q) := by
  have e : (V1 m ρ c main_v23 : S1x256.Idx → EReal)
      = shapeCast S1x256 (m ((c : Thread nD τ).loc main_arg3) : S256.Idx → EReal) shapeCasts_S256_S1x256 := by
    show StableHlo.after hostOps0 (W0 m ρ c) (Proc.devRef .tc main_v23) = _
    after_results_simp <;> rfl
  rw [e]
  exact shapeCast_a_1a_apply _ _ 0 q

/-! ## What the second product finds -/

/-- The first product's output array is what its write-backs leave. -/
theorem v2_v24 (c : Dev nD) : V2 m ρ c main_v24 = (dat0 (V1 m ρ) c).arrAt 5 cfg0.N := W2_arr m ρ c 5

/-- The edge list's sources, as the second stretch reads them. -/
theorem w2_v1 (c : Dev nD) :
    (W2 m ρ c (Proc.devRef .tc main_v1) : S600000.Idx → BitVec 32)
      = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

/-- The edge list's destinations, as the second stretch reads them. -/
theorem w2_v3 (c : Dev nD) :
    (W2 m ρ c (Proc.devRef .tc main_v3) : S600000.Idx → BitVec 32)
      = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

/-- The second product's aggregated rows are the reference's aggregation of the first product's output. -/
theorem v3_v43 (c : Dev nD) :
    (V3 m ρ c main_v43 : S50000x256.Idx → EReal)
      = agg2 (V2 m ρ c main_v24 : S50000x256.Idx → EReal) (m ((c : Thread nD τ).loc main_arg1)) := by
  show StableHlo.after hostOps1 (W2 m ρ c) (Proc.devRef .tc main_v43) = _
  after_results_simp
  rw [w2_v1, w2_v3]
  rfl

/-- The second stretch leaves the first product's output in place. -/
theorem v3_v24 (c : Dev nD) : (V3 m ρ c main_v24 : S50000x256.Idx → EReal) = V2 m ρ c main_v24 := by
  show StableHlo.after hostOps1 (W2 m ρ c) (Proc.devRef .tc main_v24) = _
  after_results_simp <;> rfl

theorem v3_arg5 (c : Dev nD) : (V3 m ρ c main_arg5 : S256x128.Idx → EReal) = m ((c : Thread nD τ).loc main_arg5) := by
  have h1 : (V3 m ρ c main_arg5 : S256x128.Idx → EReal) = W2 m ρ c (Proc.devRef .tc main_arg5) := by
    show StableHlo.after hostOps1 (W2 m ρ c) (Proc.devRef .tc main_arg5) = _
    after_results_simp <;> rfl
  have h2 : (W1 m ρ c (Proc.devRef .tc main_arg5) : S256x128.Idx → EReal) = m ((c : Thread nD τ).loc main_arg5) := by
    show StableHlo.after hostOps0 (W0 m ρ c) (Proc.devRef .tc main_arg5) = _
    after_results_simp <;> rfl
  exact h1.trans ((W2_of_ne m ρ c main_arg5 (by decide)).trans h2)

theorem v3_arg7 (c : Dev nD) : (V3 m ρ c main_arg7 : S256x128.Idx → EReal) = m ((c : Thread nD τ).loc main_arg7) := by
  have h1 : (V3 m ρ c main_arg7 : S256x128.Idx → EReal) = W2 m ρ c (Proc.devRef .tc main_arg7) := by
    show StableHlo.after hostOps1 (W2 m ρ c) (Proc.devRef .tc main_arg7) = _
    after_results_simp <;> rfl
  have h2 : (W1 m ρ c (Proc.devRef .tc main_arg7) : S256x128.Idx → EReal) = m ((c : Thread nD τ).loc main_arg7) := by
    show StableHlo.after hostOps0 (W0 m ρ c) (Proc.devRef .tc main_arg7) = _
    after_results_simp <;> rfl
  exact h1.trans ((W2_of_ne m ρ c main_arg7 (by decide)).trans h2)

/-- The second bias reaches its product as a one-row array. -/
theorem v3_v44 (c : Dev nD) (q : Fin 128) :
    (V3 m ρ c main_v44 : S1x128.Idx → EReal) (ix2 (0 : Fin 1) q) = (m ((c : Thread nD τ).loc main_arg6) : S128.Idx → EReal) (ix1 q) := by
  have h1 : (V3 m ρ c main_v44 : S1x128.Idx → EReal)
      = shapeCast S1x128 (W2 m ρ c (Proc.devRef .tc main_arg6) : S128.Idx → EReal) shapeCasts_S128_S1x128 := by
    show StableHlo.after hostOps1 (W2 m ρ c) (Proc.devRef .tc main_v44) = _
    after_results_simp <;> rfl
  have h2 : (W1 m ρ c (Proc.devRef .tc main_arg6) : S128.Idx → EReal) = m ((c : Thread nD τ).loc main_arg6) := by
    show StableHlo.after hostOps0 (W0 m ρ c) (Proc.devRef .tc main_arg6) = _
    after_results_simp <;> rfl
  rw [h1, (W2_of_ne m ρ c main_arg6 (by decide)).trans h2]
  exact shapeCast_a_1a_apply _ _ 0 q

end Cert.KernelIdeal.Host

end
-- ==== Proof.RefLayers.lean ====
/-
  The reference's two layers are the layer function. Each layer of the reference is two whole matrix products, the
  bias (a vector broadcast along the rows) added to the first product before the second is added, and for the first
  layer a maximum with zero. Read at an entry, the products are sums over the contracted axis and the broadcast reads
  the bias at the entry's column; moving the bias past the second product (addition of extended reals is commutative
  and associative) gives `linAt`.
-/
import proofs.«126338_j79096117723240_1_alg».proof.Proof.Gen.ReferenceIdeal.Read
import proofs.«126338_j79096117723240_1_alg».proof.Proof.Layer

noncomputable section

open scoped BigOperators

namespace Cert.ReferenceIdeal.Layers

open Cert.ReferenceIdeal Cert.ReferenceIdeal.Gen Cert.ReferenceIdeal.Read Idealize.ShloMosaic Idealize.ShloMosaic.ValueIdx Cert.Sage

/-- The first layer of the reference: its aggregated rows and its input rows through the layer, clamped at zero. -/
theorem layer1_eq (x0 : FVec Ideal S50000x128 .f32) (x1 : IVec S2x600000 32) (x2 : FVec Ideal S128x256 .f32)
    (x3 : FVec Ideal S256 .f32) (x4 : FVec Ideal S128x256 .f32) :
    val_main_v29 (F := Ideal) x0 x1 x2 x3 x4
      = layerRelu (val_main_v22 (F := Ideal) x0 x1) x0 x2 x4 (fun q => x3 (ix1 q)) := by
  funext i
  have eA : ∀ k : Fin 128, lidx_main_v23 i k = ix2 (i 0) k := fun k => funext fun a => by
    match a with | ⟨0, _⟩ => rfl | ⟨1, _⟩ => rfl
  have eWl : ∀ k : Fin 128, ridx_main_v23 i k = ix2 k (i 1) := fun k => funext fun a => by
    match a with | ⟨0, _⟩ => rfl | ⟨1, _⟩ => rfl
  have eX : ∀ k : Fin 128, lidx_main_v27 i k = ix2 (i 0) k := fun k => funext fun a => by
    match a with | ⟨0, _⟩ => rfl | ⟨1, _⟩ => rfl
  have eWr : ∀ k : Fin 128, ridx_main_v27 i k = ix2 k (i 1) := fun k => funext fun a => by
    match a with | ⟨0, _⟩ => rfl | ⟨1, _⟩ => rfl
  have eb : idx_main_v24 (idx_main_v25 i) = ix1 (i 1) := funext fun a => by
    match a with | ⟨0, _⟩ => rfl
  rw [val_main_v29_apply, val_main_v28_apply, val_main_v26_apply, val_main_v23_apply, val_main_v25_apply,
    val_main_v24_apply, val_main_v27_apply, val_main_call0_v0_apply, val_main_call0_cst_apply]
  simp only [eA, eWl, eX, eWr, eb]
  show max (((∑ k : Fin 128, val_main_v22 (F := Ideal) x0 x1 (ix2 (i 0) k) * x2 (ix2 k (i 1))) + x3 (ix1 (i 1)))
      + ∑ k : Fin 128, x0 (ix2 (i 0) k) * x4 (ix2 k (i 1))) (Ideal.ofBits .f32 0x00000000#32) = _
  rw [add_bias_mid]
  rfl

/-- The second layer of the reference: the aggregated rows of the first layer's result and those rows themselves
    through the layer. -/
theorem layer2_eq (x0 : FVec Ideal S50000x128 .f32) (x1 : IVec S2x600000 32) (x2 : FVec Ideal S128x256 .f32)
    (x3 : FVec Ideal S256 .f32) (x4 : FVec Ideal S128x256 .f32) (x5 : FVec Ideal S256x128 .f32)
    (x6 : FVec Ideal S128 .f32) (x7 : FVec Ideal S256x128 .f32) :
    val_main_v54 (F := Ideal) x0 x1 x2 x3 x4 x5 x6 x7
      = layerLin (val_main_v48 (F := Ideal) x0 x1 x2 x3 x4) (val_main_v29 (F := Ideal) x0 x1 x2 x3 x4) x5 x7
          (fun q => x6 (ix1 q)) := by
  funext i
  have eA : ∀ k : Fin 256, lidx_main_v49 i k = ix2 (i 0) k := fun k => funext fun a => by
    match a with | ⟨0, _⟩ => rfl | ⟨1, _⟩ => rfl
  have eWl : ∀ k : Fin 256, ridx_main_v49 i k = ix2 k (i 1) := fun k => funext fun a => by
    match a with | ⟨0, _⟩ => rfl | ⟨1, _⟩ => rfl
  have eX : ∀ k : Fin 256, lidx_main_v53 i k = ix2 (i 0) k := fun k => funext fun a => by
    match a with | ⟨0, _⟩ => rfl | ⟨1, _⟩ => rfl
  have eWr : ∀ k : Fin 256, ridx_main_v53 i k = ix2 k (i 1) := fun k => funext fun a => by
    match a with | ⟨0, _⟩ => rfl | ⟨1, _⟩ => rfl
  have eb : idx_main_v50 (idx_main_v51 i) = ix1 (i 1) := funext fun a => by
    match a with | ⟨0, _⟩ => rfl
  rw [val_main_v54_apply, val_main_v52_apply, val_main_v49_apply, val_main_v51_apply, val_main_v50_apply,
    val_main_v53_apply]
  simp only [eA, eWl, eX, eWr, eb]
  show ((∑ k : Fin 256, val_main_v48 (F := Ideal) x0 x1 x2 x3 x4 (ix2 (i 0) k) * x5 (ix2 k (i 1))) + x6 (ix1 (i 1)))
      + (∑ k : Fin 256, val_main_v29 (F := Ideal) x0 x1 x2 x3 x4 (ix2 (i 0) k) * x7 (ix2 k (i 1))) = _
  rw [add_bias_mid]
  rfl

end Cert.ReferenceIdeal.Layers

end
-- ==== Proof.Value.lean ====
/-
  Both programs compute one function of the arguments. With `hidden` the first layer of the arguments (the mean
  aggregation of the input rows and the input rows through `A · W1_l + X · W1_r + b1`, clamped at zero) and
  `result` the second layer of `hidden` (its mean aggregation and itself through `A · W2_l + X · W2_r + b2`), the
  idealized kernel's result buffer ends at `result` (each tiled product's output array is the layer function of what
  the host operations before it leave, and those are the reference's own aggregation) and so does the reference's.
-/
import proofs.«126338_j79096117723240_1_alg».proof.Proof.KernelRun
import proofs.«126338_j79096117723240_1_alg».proof.Proof.KernelRegions
import proofs.«126338_j79096117723240_1_alg».proof.Proof.HostChain
import proofs.«126338_j79096117723240_1_alg».proof.Proof.RefLayers
import proofs.«126338_j79096117723240_1_alg».proof.Proof.Aggregate
import proofs.«126338_j79096117723240_1_alg».proof.Proof.Layer

set_option maxRecDepth 16384

noncomputable section

namespace Cert.Sage.Value

open Idealize.ShloMosaic Idealize.ShloMosaic.TcCoe Idealize.SL.Sem Idealize.ShloMosaic.ValueIdx Cert.Sage
open Cert.ReferenceIdeal.Aggregate (agg2 v48_eq)
open Cert.ReferenceIdeal.Layers (layer1_eq layer2_eq)

/-- The first layer's result as a function of the arguments. -/
def hidden (x0 : FVec Ideal Cert.ReferenceIdeal.S50000x128 .f32) (x1 : IVec Cert.ReferenceIdeal.S2x600000 32)
    (x2 : FVec Ideal Cert.ReferenceIdeal.S128x256 .f32) (x3 : FVec Ideal Cert.ReferenceIdeal.S256 .f32)
    (x4 : FVec Ideal Cert.ReferenceIdeal.S128x256 .f32) : FVec Ideal Cert.ReferenceIdeal.S50000x256 .f32 :=
  layerRelu (Cert.ReferenceIdeal.Read.val_main_v22 (F := Ideal) x0 x1) x0 x2 x4 (fun q => x3 (ix1 q))

/-- The program's result as a function of the arguments. -/
def result (x0 : FVec Ideal Cert.ReferenceIdeal.S50000x128 .f32) (x1 : IVec Cert.ReferenceIdeal.S2x600000 32)
    (x2 : FVec Ideal Cert.ReferenceIdeal.S128x256 .f32) (x3 : FVec Ideal Cert.ReferenceIdeal.S256 .f32)
    (x4 : FVec Ideal Cert.ReferenceIdeal.S128x256 .f32) (x5 : FVec Ideal Cert.ReferenceIdeal.S256x128 .f32)
    (x6 : FVec Ideal Cert.ReferenceIdeal.S128 .f32) (x7 : FVec Ideal Cert.ReferenceIdeal.S256x128 .f32) :
    FVec Ideal Cert.ReferenceIdeal.S50000x128 .f32 :=
  layerLin (agg2 (hidden x0 x1 x2 x3 x4) x1) (hidden x0 x1 x2 x3 x4) x5 x7 (fun q => x6 (ix1 q))

/-- The reference's last stage is `result`. -/
theorem ref_value (x0 : FVec Ideal Cert.ReferenceIdeal.S50000x128 .f32) (x1 : IVec Cert.ReferenceIdeal.S2x600000 32)
    (x2 : FVec Ideal Cert.ReferenceIdeal.S128x256 .f32) (x3 : FVec Ideal Cert.ReferenceIdeal.S256 .f32)
    (x4 : FVec Ideal Cert.ReferenceIdeal.S128x256 .f32) (x5 : FVec Ideal Cert.ReferenceIdeal.S256x128 .f32)
    (x6 : FVec Ideal Cert.ReferenceIdeal.S128 .f32) (x7 : FVec Ideal Cert.ReferenceIdeal.S256x128 .f32) :
    Cert.ReferenceIdeal.Read.val_main_v54 (F := Ideal) x0 x1 x2 x3 x4 x5 x6 x7 = result x0 x1 x2 x3 x4 x5 x6 x7 := by
  rw [layer2_eq, v48_eq, layer1_eq]
  rfl

section Kernel

open Cert.KernelIdeal Cert.KernelIdeal.Gen Cert.KernelIdeal.Regions Cert.KernelIdeal.Host

variable (m : (ℓ : Loc nD τ sig) → Buf (Elt Ideal) ℓ) (ρ : Dev nD → PrngReg)

/-- The second product's output array after the run is `result` of the launch contents of the arguments. -/
theorem kernel_value (c : Dev nD) :
    ((dat1 (V3 m ρ) c).arrAt 5 cfg1.N : S50000x128.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [final1 (V3 m ρ) c]
  unfold G1
  rw [v3_v43, v3_v24, v3_arg5, v3_arg7]
  rw [show (fun q : Fin 128 => (V3 m ρ c main_v44 : S1x128.Idx → EReal) (ix2 (0 : Fin 1) q))
      = (fun q : Fin 128 => (m ((c : Thread nD τ).loc main_arg6) : S128.Idx → EReal) (ix1 q)) from funext (v3_v44 m ρ c)]
  rw [v2_v24, final0 (V1 m ρ) c]
  unfold G0
  rw [v22_eq, v1_arg0, v1_arg2, v1_arg4]
  rw [show (fun q : Fin 256 => (V1 m ρ c main_v23 : S1x256.Idx → EReal) (ix2 (0 : Fin 1) q))
      = (fun q : Fin 256 => (m ((c : Thread nD τ).loc main_arg3) : S256.Idx → EReal) (ix1 q)) from funext (v1_v23 m ρ c)]
  rfl

end Kernel

end Cert.Sage.Value

end
-- ==== Proof.lean ====
/-
  A two-layer graph convolution with mean aggregation: each layer gathers the source rows of every edge, sums
  them at the destination row, divides by the clamped in-degree, and applies
  `agg · W_l + x · W_r + b` (the first layer followed by `max(·, 0)`). The aggregation is the same sequence of
  host operations on both sides; the two linear maps of a layer are one tiled matrix-product kernel over 25 blocks
  of 2000 rows against two whole host products, and the bias is added last in the kernel and between the two
  products in the reference. At the extended reals both are the same function: a format change is the identity, a
  matrix product into a zero accumulator is the plain sum over the contracted axis, and addition of extended reals
  is commutative and associative (no finiteness is needed).
-/
import proofs.«126338_j79096117723240_1_alg».proof.Defs
import proofs.«126338_j79096117723240_1_alg».proof.Proof.Gen.Kernel
import proofs.«126338_j79096117723240_1_alg».proof.Proof.Gen.Kernel.Skeleton
import proofs.«126338_j79096117723240_1_alg».proof.Proof.Gen.Kernel.Launch
import proofs.«126338_j79096117723240_1_alg».proof.Proof.Gen.Kernel.Points
import proofs.«126338_j79096117723240_1_alg».proof.Proof.Gen.Kernel.Frame
import proofs.«126338_j79096117723240_1_alg».proof.Proof.Gen.KernelIdeal
import proofs.«126338_j79096117723240_1_alg».proof.Proof.Gen.KernelIdeal.Skeleton
import proofs.«126338_j79096117723240_1_alg».proof.Proof.Gen.KernelIdeal.Launch
import proofs.«126338_j79096117723240_1_alg».proof.Proof.Gen.KernelIdeal.Points
import proofs.«126338_j79096117723240_1_alg».proof.Proof.Gen.KernelIdeal.Frame
import proofs.«126338_j79096117723240_1_alg».proof.Proof.Gen.ReferenceIdeal
import proofs.«126338_j79096117723240_1_alg».proof.Proof.Gen.ReferenceIdeal.Run
import proofs.«126338_j79096117723240_1_alg».proof.Proof.Gen.ReferenceIdeal.Read
import proofs.«126338_j79096117723240_1_alg».proof.Proof.Gen.Pre_finite_inputs
import proofs.«126338_j79096117723240_1_alg».proof.Proof.Value
import Idealize.ShloMosaic.Adequacy
import Idealize.ShloMosaic.Init

noncomputable section

namespace Cert.Proof

open Idealize.ShloMosaic Idealize.SL.Sem Cert.Kernel

/-- The printed kernel runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result at the two-layer function of
    the arguments. -/
theorem algebraic : Cert.algebraic_KernelIdeal_ReferenceIdeal := by
  intro m ρ m' ρ' _ hagree
  refine ⟨fun c => Cert.Sage.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Value.kernel_value m ρ c), (h c).2⟩)
      (Cert.KernelIdeal.Run.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, h0, h1, h2, h3, h4, h5, h6, h7]
    exact Cert.Sage.Value.ref_value _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
